-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x448x96 : Shape := ⟨3, ![4, 448, 96]⟩
abbrev S4x448x32 : Shape := ⟨3, ![4, 448, 32]⟩
abbrev S96x96 : Shape := ⟨2, ![96, 96]⟩
abbrev S96 : Shape := ⟨1, ![96]⟩
abbrev S96x32 : Shape := ⟨2, ![96, 32]⟩
abbrev S128x96 : Shape := ⟨2, ![128, 96]⟩
abbrev S128 : Shape := ⟨1, ![128]⟩
abbrev S_ : Shape := ⟨0, ![]⟩

class Facts : Prop where
  bcast_S_S4x448x96 : S_.BroadcastsInDim S4x448x96 (![] : Fin 0 → Fin S4x448x96.rank)
  reducesTo_S4x448x96_S_d0_1_2 : S4x448x96.ReducesTo [0, 1, 2] S_
  h_S_ : 0 < S_.numel
  bcast_S_S4x448x32 : S_.BroadcastsInDim S4x448x32 (![] : Fin 0 → Fin S4x448x32.rank)
  reducesTo_S4x448x32_S_d0_1_2 : S4x448x32.ReducesTo [0, 1, 2] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S96x32 .f32) (main_arg5 : FVec F S96 .f32) (main_arg6 : FVec F S128x96 .f32) (main_arg7 : FVec F S128 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x32 .f32 := Host.absf main_arg4
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S128x96 .f32 := Host.absf main_arg6
  let main_cst_10 : FVec F S_ .f32 := constant S_ .f32 0x7F800000#32
  let main_v30 : FVec F S128x96 .f32 := broadcastInDim S128x96 ![] bcast_S_S128x96 main_cst_10
  let main_v31 : IVec S128x96 1 := cmpf .olt main_v29 main_v30
  let main_c_11 : IVec S_ 1 := constantI S_ 1 1#1
  let main_v32 : IVec S_ 1 := (fun x v => Host.reduce IntOp.andi x v reducesTo_S128x96_S_d0_1 h_S_) main_v31 main_c_11
  let main_v33 : IVec S_ 1 := andi main_v28 main_v32
  fn_part2 (F := F) main_arg7 main_v33

def fn {F : FTy → Type} [FloatOps F] (main_arg0 : FVec F S4x448x96 .f32) (main_arg1 : FVec F S4x448x32 .f32) (main_arg2 : FVec F S96x96 .f32) (main_arg3 : FVec F S96 .f32) (main_arg4 : FVec F S96x32 .f32) (main_arg5 : FVec F S96 .f32) (main_arg6 : FVec F S128x96 .f32) (main_arg7 : FVec F S128 .f32) : IVec S_ 1 :=
  let main_v0 : FVec F S4x448x96 .f32 := Host.absf main_arg0
  let main_cst : FVec F S_ .f32 := constant S_ .f32 0x7F800000#32
  let main_v1 : FVec F S4x448x96 .f32 := broadcastInDim S4x448x96 ![] bcast_S_S4x448x96 main_cst
  let main_v2 : IVec S4x448x96 1 := cmpf .olt main_v0 main_v1
  let main_c : IVec S_ 1 := constantI S_ 1 1#1
  let main_v3 : IVec S_ 1 := (fun x v => Host.reduce IntOp.andi x v reducesTo_S4x448x96_S_d0_1_2 h_S_) main_v2 main_c
  let main_v4 : FVec F S4x448x32 .f32 := Host.absf main_arg1
  let main_cst_0 : FVec F S_ .f32 := constant S_ .f32 0x7F800000#32
  let main_v5 : FVec F S4x448x32 .f32 := broadcastInDim S4x448x32 ![] bcast_S_S4x448x32 main_cst_0
  let main_v6 : IVec S4x448x32 1 := cmpf .olt main_v4 main_v5
  let main_c_1 : IVec S_ 1 := constantI S_ 1 1#1
  let main_v7 : IVec S_ 1 := (fun x v => Host.reduce IntOp.andi x v reducesTo_S4x448x32_S_d0_1_2 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_v13 main_v16
-- ==== Kernel.lean ====
abbrev S4x448x96 : Shape := ⟨3, ![4, 448, 96]⟩
abbrev S4x448x32 : Shape := ⟨3, ![4, 448, 32]⟩
abbrev S96x96 : Shape := ⟨2, ![96, 96]⟩
abbrev S96 : Shape := ⟨1, ![96]⟩
abbrev S96x32 : Shape := ⟨2, ![96, 32]⟩
abbrev S128x96 : Shape := ⟨2, ![128, 96]⟩
abbrev S128 : Shape := ⟨1, ![128]⟩
abbrev S4x448x448x128 : Shape := ⟨4, ![4, 448, 448, 128]⟩
abbrev S1x112x96 : Shape := ⟨3, ![1, 112, 96]⟩
abbrev S1x64x32 : Shape := ⟨3, ![1, 64, 32]⟩
abbrev S1x112x64x128 : Shape := ⟨4, ![1, 112, 64, 128]⟩
abbrev S112x96 : Shape := ⟨2, ![112, 96]⟩
abbrev S64x32 : Shape := ⟨2, ![64, 32]⟩
abbrev S1x96 : Shape := ⟨2, ![1, 96]⟩
abbrev S32x96 : Shape := ⟨2, ![32, 96]⟩
abbrev S64x96 : Shape := ⟨2, ![64, 96]⟩
abbrev S112x1x96 : Shape := ⟨3, ![112, 1, 96]⟩
abbrev S1x64x96 : Shape := ⟨3, ![1, 64, 96]⟩
abbrev S112x64x96 : Shape := ⟨3, ![112, 64, 96]⟩
abbrev S7168x96 : Shape := ⟨2, ![7168, 96]⟩
abbrev S96x128 : Shape := ⟨2, ![96, 128]⟩
abbrev S7168x128 : Shape := ⟨2, ![7168, 128]⟩
abbrev S1x128 : Shape := ⟨2, ![1, 128]⟩
abbrev S112x64x128 : Shape := ⟨3, ![112, 64, 128]⟩
abbrev S112x64 : Shape := ⟨2, ![112, 64]⟩
abbrev S112x64x1 : Shape := ⟨3, ![112, 64, 1]⟩

abbrev nBuf : Space → Nat
  | .hbm => 9
  | .vmem => 12
  | .smem => 0
  | _ => 0

abbrev bufTy : (tb : Table) → Fin (tcTables nBuf tb) → BufTy
  | .hbm, ⟨0, _⟩ => ⟨S4x448x96, .f32⟩
  | .hbm, ⟨1, _⟩ => ⟨S4x448x32, .f32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S96, .f32⟩
  | .hbm, ⟨6, _⟩ => ⟨S128x96, .f32⟩
  | .hbm, ⟨7, _⟩ => ⟨S128, .f32⟩
  | .hbm, ⟨8, _⟩ => ⟨S4x448x448x128, .f32⟩
  | .local _ .vmem, ⟨0, _⟩ => ⟨S1x112x96, .f32⟩
  | .local _ .vmem, ⟨1, _⟩ => ⟨S1x112x96, .f32⟩
  | .local _ .vmem, ⟨2, _⟩ => ⟨S1x64x32, .f32⟩
  | .local _ .vmem, ⟨3, _⟩ => ⟨S1x64x32, .f32⟩
  | .local _ .vmem, ⟨4, _⟩ => ⟨S96x96, .f32⟩
  | .local _ .vmem, ⟨5, _⟩ => ⟨S96, .f32⟩
  | .local _ .vmem, ⟨6, _⟩ => ⟨S96x32, .f32⟩
  | .local _ .vmem, ⟨7, _⟩ => ⟨S96, .f32⟩
  | .local _ .vmem, ⟨8, _⟩ => ⟨S128x96, .f32⟩
  | .local _ .vmem, ⟨9, _⟩ => ⟨S128, .f32⟩
  | .local _ .vmem, ⟨10, _⟩ => ⟨S1x112x64x128, .f32⟩
  | .local _ .vmem, ⟨11, _⟩ => ⟨S1x112x64x128, .f32⟩
  | _, _ => ⟨S4x448x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![4, 4, 7], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x112x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S96x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x112x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  inb_S1x112x96_S1x112x96_0_0_0 : ∀ a, (![0, 0, 0] : Fin 3 → Nat) a + S1x112x96.size a ≤ S1x112x96.size a
  h_S1x112x96 : 0 < S1x112x96.numel
  shapeCasts_S1x112x96_S112x96 : S1x112x96.ShapeCasts S112x96
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  inb_S96x32_S96x32_0_0 : ∀ a, (![0, 0] : Fin 2 → Nat) a + S96x32.size a ≤ S96x32.size a
  h_S96x32 : 0 < S96x32.numel
  inb_S128x96_S128x96_0_0 : ∀ a, (![0, 0] : Fin 2 → Nat) a + S128x96.size a ≤ S128x96.size a
  h_S128x96 : 0 < S128x96.numel
  inb_S128_S128_0 : ∀ a, (![0] : Fin 1 → Nat) a + S128.size a ≤ S128.size a
  h_S128 : 0 < S128.numel
  bitsLt_bf16_f32 : FTy.bits .bf16 < FTy.bits .f32
  transposes_S96x96_p1_0_S96x96 : S96x96.Transposes [1, 0] S96x96
  shapeCasts_S96_S1x96 : S96.ShapeCasts S1x96
  broadcasts_S1x96_S112x96 : S1x96.Broadcasts S112x96
  transposes_S96x32_p1_0_S32x96 : S96x32.Transposes [1, 0] S32x96
  broadcasts_S1x96_S64x96 : S1x96.Broadcasts S64x96
  shapeCasts_S112x96_S112x1x96 : S112x96.ShapeCasts S112x1x96
  shapeCasts_S64x96_S1x64x96 : S64x96.ShapeCasts S1x64x96
  broadcasts_S112x1x96_S112x64x96 : S112x1x96.Broadcasts S112x64x96
  broadcasts_S1x64x96_S112x64x96 : S1x64x96.Broadcasts S112x64x96
  shapeCasts_S112x64x96_S7168x96 : S112x64x96.ShapeCasts S7168x96
  transposes_S128x96_p1_0_S96x128 : S128x96.Transposes [1, 0] S96x128
  shapeCasts_S128_S1x128 : S128.ShapeCasts S1x128
  broadcasts_S1x128_S7168x128 : S1x128.Broadcasts S7168x128
  shapeCasts_S7168x128_S112x64x128 : S7168x128.ShapeCasts S112x64x128
  reduces_S112x64x128_S112x64 : S112x64x128.Reduces [2] S112x64
  shapeCasts_S112x64_S112x64x1 : S112x64.ShapeCasts S112x64x1
  broadcasts_S112x64x1_S112x64x128 : S112x64x1.Broadcasts S112x64x128
  inb_S1x112x64x128_S1x112x64x128_0_0_0_0 : ∀ a, (![0, 0, 0, 0] : Fin 4 → Nat) a + S1x112x64x128.size a ≤ S1x112x64x128.size a
  h_S1x112x64x128 : 0 < S1x112x64x128.numel
  shapeCasts_S1x112x64x128_S112x64x128 : S1x112x64x128.ShapeCasts S112x64x128
  shapeCasts_S112x64x128_S1x112x64x128 : S112x64x128.ShapeCasts S1x112x64x128
  dot_S112x96_S96x96_S112x96_1_0_0_1_n_n_wf : DotDims.WF S112x96 S96x96 S112x96 [1] [0] [0] [1] [] []
  dot_S64x32_S32x96_S64x96_1_0_0_1_n_n_wf : DotDims.WF S64x32 S32x96 S64x96 [1] [0] [0] [1] [] []
  dot_S7168x96_S96x128_S7168x128_1_0_0_1_n_n_wf : DotDims.WF S7168x96 S96x128 S7168x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x96.size a ≤ S4x448x96.size a
  hwx0_0 : ∀ i : grid0.Coords, EltTy.bits .f32 = 32 ∨ (Rect.block (s := S4x448x96) S1x112x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32.size a ≤ S4x448x32.size a
  hwx0_1 : ∀ i : grid0.Coords, EltTy.bits .f32 = 32 ∨ (Rect.block (s := S4x448x32) S1x64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96.size a ≤ S96.size a
  hwx0_3 : ∀ i : grid0.Coords, EltTy.bits .f32 = 32 ∨ (Rect.block (s := S96) S96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x32.size a ≤ S96x32.size a
  hwx0_4 : ∀ i : grid0.Coords, EltTy.bits .f32 = 32 ∨ (Rect.block (s := S96x32) S96x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x96.size a ≤ S128x96.size a
  hwx0_6 : ∀ i : grid0.Coords, EltTy.bits .f32 = 32 ∨ (Rect.block (s := S128x96) S128x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x112x64x128.size a ≤ S4x448x448x128.size a
  hwx0_8 : ∀ i : grid0.Coords, EltTy.bits .f32 = 32 ∨ (Rect.block (s := S4x448x448x128) S1x112x64x128.size (cc0_transform_8 i) (hinb0_8 i)).WholeWords (EltTy.packing .f32)

variable [Facts₀]

def dot_S112x96_S96x96_S112x96_1_0_0_1_n_n : DotDims S112x96 S96x96 S112x96 where
  lhsContracting := [1]
  rhsContracting := [0]
  lhsNonContracting := [0]
  rhsNonContracting := [1]
  lhsBatch := []
  rhsBatch := []
  wf := dot_S112x96_S96x96_S112x96_1_0_0_1_n_n_wf
def dot_S64x32_S32x96_S64x96_1_0_0_1_n_n : DotDims S64x32 S32x96 S64x96 where
  lhsContracting := [1]
  rhsContracting := [0]
  lhsNonContracting := [0]
  rhsNonContracting := [1]
  lhsBatch := []
  rhsBatch := []
  wf := dot_S64x32_S32x96_S64x96_1_0_0_1_n_n_wf
def dot_S7168x96_S96x128_S7168x128_1_0_0_1_n_n : DotDims S7168x96 S96x128 S7168x128 where
  lhsContracting := [1]
  rhsContracting := [0]
  lhsNonContracting := [0]
  rhsNonContracting := [1]
  lhsBatch := []
  rhsBatch := []
  wf := dot_S7168x96_S96x128_S7168x128_1_0_0_1_n_n_wf

abbrev win0_0 : Pipeline.Window sig grid0 :=
  Pipeline.Window.ofSpec (Memref.whole main_arg0) S1x112x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x112x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x448x96 : Shape := ⟨3, ![4, 448, 96]⟩
abbrev S4x448x32 : Shape := ⟨3, ![4, 448, 32]⟩
abbrev S96x96 : Shape := ⟨2, ![96, 96]⟩
abbrev S96 : Shape := ⟨1, ![96]⟩
abbrev S96x32 : Shape := ⟨2, ![96, 32]⟩
abbrev S128x96 : Shape := ⟨2, ![128, 96]⟩
abbrev S128 : Shape := ⟨1, ![128]⟩
abbrev S1x1x96 : Shape := ⟨3, ![1, 1, 96]⟩
abbrev S4x448x1x96 : Shape := ⟨4, ![4, 448, 1, 96]⟩
abbrev S_ : Shape := ⟨0, ![]⟩
abbrev S4x1x448x96 : Shape := ⟨4, ![4, 1, 448, 96]⟩
abbrev S4x448x448x96 : Shape := ⟨4, ![4, 448, 448, 96]⟩
abbrev S4x448x448x128 : Shape := ⟨4, ![4, 448, 448, 128]⟩
abbrev S1x1x1x128 : Shape := ⟨4, ![1, 1, 1, 128]⟩
abbrev S4x448x448 : Shape := ⟨3, ![4, 448, 448]⟩
abbrev S4x448x448x1 : Shape := ⟨4, ![4, 448, 448, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x448x96, .f32⟩
  | .hbm, ⟨1, _⟩ => ⟨S4x448x32, .f32⟩
  | .hbm, ⟨2, _⟩ => ⟨S96x96, .f32⟩
  | .hbm, ⟨3, _⟩ => ⟨S96, .f32⟩
  | .hbm, ⟨4, _⟩ => ⟨S96x32, .f32⟩
  | .hbm, ⟨5, _⟩ => ⟨S96, .f32⟩
  | .hbm, ⟨6, _⟩ => ⟨S128x96, .f32⟩
  | .hbm, ⟨7, _⟩ => ⟨S128, .f32⟩
  | .hbm, ⟨8, _⟩ => ⟨S4x448x96, .f32⟩
  | .hbm, ⟨9, _⟩ => ⟨S1x1x96, .f32⟩
  | .hbm, ⟨10, _⟩ => ⟨S4x448x96, .f32⟩
  | .hbm, ⟨11, _⟩ => ⟨S4x448x96, .f32⟩
  | .hbm, ⟨12, _⟩ => ⟨S4x448x96, .f32⟩
  | .hbm, ⟨13, _⟩ => ⟨S1x1x96, .f32⟩
  | .hbm, ⟨14, _⟩ => ⟨S4x448x96, .f32⟩
  | .hbm, ⟨15, _⟩ => ⟨S4x448x96, .f32⟩
  | .hbm, ⟨16, _⟩ => ⟨S4x448x1x96, .f32⟩
  | .hbm, ⟨17, _⟩ => ⟨S_, .f32⟩
  | .hbm, ⟨18, _⟩ => ⟨S4x448x96, .f32⟩
  | .hbm, ⟨19, _⟩ => ⟨S4x448x96, .f32⟩
  | .hbm, ⟨20, _⟩ => ⟨S4x1x448x96, .f32⟩
  | .hbm, ⟨21, _⟩ => ⟨S4x448x448x96, .f32⟩
  | .hbm, ⟨22, _⟩ => ⟨S4x448x448x96, .f32⟩
  | .hbm, ⟨23, _⟩ => ⟨S4x448x448x96, .f32⟩
  | .hbm, ⟨24, _⟩ => ⟨S4x448x448x128, .f32⟩
  | .hbm, ⟨25, _⟩ => ⟨S1x1x1x128, .f32⟩
  | .hbm, ⟨26, _⟩ => ⟨S4x448x448x128, .f32⟩
  | .hbm, ⟨27, _⟩ => ⟨S4x448x448x128, .f32⟩
  | .hbm, ⟨28, _⟩ => ⟨S_, .f32⟩
  | .hbm, ⟨29, _⟩ => ⟨S4x448x448, .f32⟩
  | .hbm, ⟨30, _⟩ => ⟨S_, .f32⟩
  | .hbm, ⟨31, _⟩ => ⟨S4x448x448, .f32⟩
  | .hbm, ⟨32, _⟩ => ⟨S4x448x448, .f32⟩
  | .hbm, ⟨33, _⟩ => ⟨S4x448x448x1, .f32⟩
  | .hbm, ⟨34, _⟩ => ⟨S4x448x448x128, .f32⟩
  | .hbm, ⟨35, _⟩ => ⟨S4x448x448x128, .f32⟩
  | .hbm, ⟨36, _⟩ => ⟨S4x448x448x128, .f32⟩
  | .hbm, ⟨37, _⟩ => ⟨S_, .f32⟩
  | .hbm, ⟨38, _⟩ => ⟨S4x448x448, .f32⟩
  | .hbm, ⟨39, _⟩ => ⟨S4x448x448x1, .f32⟩
  | .hbm, ⟨40, _⟩ => ⟨S4x448x448x1, .f32⟩
  | .hbm, ⟨41, _⟩ => ⟨S4x448x448x128, .f32⟩
  | .hbm, ⟨42, _⟩ => ⟨S4x448x448x128, .f32⟩
  | _, _ => ⟨S4x448x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v18 : Ref sig .tc := ⟨.hbm, 42, rfl⟩

abbrev nD : Nat := 1
abbrev τ : Topo := Topo.v7x

variable {F : FTy → Type} [FloatOps F]

class Facts₀ : Prop where
  bcast_S96_S1x1x96_2 : S96.BroadcastsInDim S1x1x96 (![2] : Fin 1 → Fin S1x1x96.rank)
  bcast_S1x1x96_S4x448x96_0_1_2 : S1x1x96.BroadcastsInDim S4x448x96 (![0, 1, 2] : Fin 3 → Fin S4x448x96.rank)
  bcast_S4x448x96_S4x448x1x96_0_1_3 : S4x448x96.BroadcastsInDim S4x448x1x96 (![0, 1, 3] : Fin 3 → Fin S4x448x1x96.rank)
  bcast_S_S4x448x96 : S_.BroadcastsInDim S4x448x96 (![] : Fin 0 → Fin S4x448x96.rank)
  bcast_S4x448x96_S4x1x448x96_0_2_3 : S4x448x96.BroadcastsInDim S4x1x448x96 (![0, 2, 3] : Fin 3 → Fin S4x1x448x96.rank)
  bcast_S4x448x1x96_S4x448x448x96_0_1_2_3 : S4x448x1x96.BroadcastsInDim S4x448x448x96 (![0, 1, 2, 3] : Fin 4 → Fin S4x448x448x96.rank)
  bcast_S4x1x448x96_S4x448x448x96_0_1_2_3 : S4x1x448x96.BroadcastsInDim S4x448x448x96 (![0, 1, 2, 3] : Fin 4 → Fin S4x448x448x96.rank)
  bcast_S128_S1x1x1x128_3 : S128.BroadcastsInDim S1x1x1x128 (![3] : Fin 1 → Fin S1x1x1x128.rank)
  bcast_S1x1x1x128_S4x448x448x128_0_1_2_3 : S1x1x1x128.BroadcastsInDim S4x448x448x128 (![0, 1, 2, 3] : Fin 4 → Fin S4x448x448x128.rank)
  reducesTo_S4x448x448x128_S4x448x448_d3 : S4x448x448x128.ReducesTo [3] S4x448x448
  h_S_ : 0 < S_.numel
  bcast_S_S4x448x448 : S_.BroadcastsInDim S4x448x448 (![] : Fin 0 → Fin S4x448x448.rank)
  bcast_S4x448x448_S4x448x448x1_0_1_2 : S4x448x448.BroadcastsInDim S4x448x448x1 (![0, 1, 2] : Fin 3 → Fin S4x448x448x1.rank)
  bcast_S4x448x448x1_S4x448x448x128_0_1_2_3 : S4x448x448x1.BroadcastsInDim S4x448x448x128 (![0, 1, 2, 3] : Fin 4 → Fin S4x448x448x128.rank)
  dot_S4x448x96_S96x96_S4x448x96_2_1_01_0_n_n_wf : DotDims.WF S4x448x96 S96x96 S4x448x96 [2] [1] [0, 1] [0] [] []
  dot_S4x448x32_S96x32_S4x448x96_2_1_01_0_n_n_wf : DotDims.WF S4x448x32 S96x32 S4x448x96 [2] [1] [0, 1] [0] [] []
  dot_S4x448x448x96_S128x96_S4x448x448x128_3_1_012_0_n_n_wf : DotDims.WF S4x448x448x96 S128x96 S4x448x448x128 [3] [1] [0, 1, 2] [0] [] []

variable [Facts₀]

def dot_S4x448x96_S96x96_S4x448x96_2_1_01_0_n_n : DotDims S4x448x96 S96x96 S4x448x96 where
  lhsContracting := [2]
  rhsContracting := [1]
  lhsNonContracting := [0, 1]
  rhsNonContracting := [0]
  lhsBatch := []
  rhsBatch := []
  wf := dot_S4x448x96_S96x96_S4x448x96_2_1_01_0_n_n_wf
def dot_S4x448x32_S96x32_S4x448x96_2_1_01_0_n_n : DotDims S4x448x32 S96x32 S4x448x96 where
  lhsContracting := [2]
  rhsContracting := [1]
  lhsNonContracting := [0, 1]
  rhsNonContracting := [0]
  lhsBatch := []
  rhsBatch := []
  wf := dot_S4x448x32_S96x32_S4x448x96_2_1_01_0_n_n_wf
def dot_S4x448x448x96_S128x96_S4x448x448x128_3_1_012_0_n_n : DotDims S4x448x448x96 S128x96 S4x448x448x128 where
  lhsContracting := [3]
  rhsContracting := [1]
  lhsNonContracting := [0, 1, 2]
  rhsNonContracting := [0]
  lhsBatch := []
  rhsBatch := []
  wf := dot_S4x448x448x96_S128x96_S4x448x448x128_3_1_012_0_n_n_wf

class Facts : Prop extends Facts₀ where

variable [Facts]
-- ==== Proof.JoinerSpec.lean ====
/-
  The joiner's output as ONE function of its eight arrays, over the extended reals.

  For a batch entry b, a time step t and a label position u the two projected rows are
    sh[h] = (sum over k of s[b,t,k] * W_sh[h,k]) + b_sh[h]
    bh[h] = max ((sum over k of b[b,u,k] * W_bh[h,k]) + b_bh[h]) 0
  their elementwise product is projected to the 128 logits
    logit[v] = (sum over h of (sh[h] * bh[h]) * W_out[v,h]) + b_out[v]
  and the output is the log-softmax of that row: with M = max (-inf) (the maximum of the row, folded from -inf),
    out[v] = (logit[v] - M) - log (sum over w of exp (logit[w] - M)).
  The row functions take the operand ROWS as plain functions of the contraction index, so that a kernel's block and
  the whole arrays are both read through the same definitions.
-/
import Idealize.ShloMosaic.Lib.ValueIdx
import Idealize.ShloMosaic.PureOps.Ideal
import Idealize.ShloMosaic.PureOps.Ideal.Laws

noncomputable section

namespace Cert.Joiner

open Idealize.ShloMosaic Idealize.ShloMosaic.ValueIdx

/-- The float word of +0.0 and of -inf, as the two programs print them. -/
abbrev zeroW : EReal := Ideal.ofBits .f32 0x00000000#32
abbrev negInfW : EReal := Ideal.ofBits .f32 0xFF800000#32

/-- One entry of the first projection: a row of `s` against row `h` of `W_sh`, plus the bias. -/
def shAt (sRow : Fin 96 → EReal) (wsh : Fin 96 → Fin 96 → EReal) (bsh : Fin 96 → EReal) (h : Fin 96) : EReal :=
  (∑ k : Fin 96, sRow k * wsh h k) + bsh h

/-- One entry of the second projection, after the rectifier. -/
def bhAt (bRow : Fin 32 → EReal) (wbh : Fin 96 → Fin 32 → EReal) (bbh : Fin 96 → EReal) (h : Fin 96) : EReal :=
  max ((∑ k : Fin 32, bRow k * wbh h k) + bbh h) zeroW

/-- One logit: the product of the two projected rows against row `v` of `W_out`, plus the bias. -/
def logitAt (sRow : Fin 96 → EReal) (bRow : Fin 32 → EReal) (wsh : Fin 96 → Fin 96 → EReal) (bsh : Fin 96 → EReal)
    (wbh : Fin 96 → Fin 32 → EReal) (bbh : Fin 96 → EReal) (wout : Fin 128 → Fin 96 → EReal) (bout : Fin 128 → EReal)
    (v : Fin 128) : EReal :=
  (∑ h : Fin 96, (shAt sRow wsh bsh h * bhAt bRow wbh bbh h) * wout v h) + bout v

/-- The maximum of a row of 128 values, folded from -inf, and then taken against -inf once more. -/
def rowMax (f : Fin 128 → EReal) : EReal :=
  max negInfW ((Finset.univ : Finset (Fin 128)).fold max negInfW f)

/-- The log-softmax of a row of 128 values, at position `v`. -/
def logSoftmaxAt (f : Fin 128 → EReal) (v : Fin 128) : EReal :=
  (f v - rowMax f) - Ideal.log (∑ w : Fin 128, Ideal.exp (f w - rowMax f))

/-- THE OUTPUT ARRAY as one function of the eight argument arrays, index by index. -/
def G (s : FVec Ideal ⟨3, ![4, 448, 96]⟩ .f32) (b : FVec Ideal ⟨3, ![4, 448, 32]⟩ .f32)
    (wsh : FVec Ideal ⟨2, ![96, 96]⟩ .f32) (bsh : FVec Ideal ⟨1, ![96]⟩ .f32)
    (wbh : FVec Ideal ⟨2, ![96, 32]⟩ .f32) (bbh : FVec Ideal ⟨1, ![96]⟩ .f32)
    (wout : FVec Ideal ⟨2, ![128, 96]⟩ .f32) (bout : FVec Ideal ⟨1, ![128]⟩ .f32) :
    FVec Ideal ⟨4, ![4, 448, 448, 128]⟩ .f32 := fun i =>
  logSoftmaxAt
    (logitAt (fun k => s (ix3 (i 0) (i 1) k)) (fun k => b (ix3 (i 0) (i 2) k))
      (fun h k => wsh (ix2 h k)) (fun h => bsh (ix1 h)) (fun h k => wbh (ix2 h k)) (fun h => bbh (ix1 h))
      (fun v h => wout (ix2 v h)) (fun v => bout (ix1 v)))
    (i 3)

end Cert.Joiner

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibUnitAxisLayout.lean ====
/-
  Layout operations around a UNIT AXIS in the middle or at the end of a rank-3 shape, and the merge of the two leading
  axes of a rank-3 shape into one, each read at an index written by coordinates. Independent of any program.

  A shape cast keeps the row-major position: `[a, b] → [a, 1, b]` and `[a, b] → [a, b, 1]` only insert a coordinate that is
  zero, and `[a, b, c] ↔ [a·b, c]` sends `(p, q, k)` to row `p·b + q`, column `k`. A broadcast along a unit axis reads the
  operand at coordinate zero of that axis. A reduction along the last axis of a rank-3 array puts the dropped coordinate back
  in the last place.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, c]` array cast to `[n, c]` (so `n = a·b`) reads, at row `p·b + q` and column `k`, the operand at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c)
    (hr : p.val * b + q.val < n) :
    shapeCast ⟨2, ![n, c]⟩ x h (ix2 (⟨p.val * b + q.val, hr⟩ : Fin n) k) = x (ix3 p q k) :=
  shapeCast_apply x h _ _ (by
    rw [Shape.rowMajor_val_three, Shape.rowMajor_val_two]
    rfl)

/-- An `[n, c]` array (`n = a·b`) cast to `[a, b, c]` reads, at `(p, q, k)`, the operand at row `p·b + q`, column `k`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c)
    (hr : p.val * b + q.val < n) :
    shapeCast ⟨3, ![a, b, c]⟩ x h (ix3 p q k) = x (ix2 (⟨p.val * b + q.val, hr⟩ : Fin n) k) :=
  shapeCast_apply x h _ _ (by
    rw [Shape.rowMajor_val_three, Shape.rowMajor_val_two]
    rfl)

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Over a rank-3 array reduced along its last axis, the result index `(p, q)` with `k` put back on the dropped axis is
    `(p, q, k)`. -/
theorem lift_last_ix3 {a b c : ℕ} (h : (⟨3, ![a, b, c]⟩ : Shape).Reduces [2] ⟨2, ![a, b]⟩) (p : Fin a) (q : Fin b)
    (k : Fin ((⟨3, ![a, b, c]⟩ : Shape).size 2)) :
    h.lift (ix2 p q) k = ix3 p q (⟨k.val, k.isLt⟩ : Fin c) := by
  funext d; apply Fin.ext
  fin_cases d <;> rfl

end Cert.Lib

end
-- ==== Proof.KernelLogits.lean ====
/-
  The kernel's logits at one row of a block, over the extended reals.

  A block of the kernel holds 112 time steps and 64 label positions of one batch entry. The body flattens the pair
  (time step p, label position q) to row p·64 + q of a [7168, 96] matrix of products sh[p,h] · bh[q,h], and multiplies that
  matrix by the transposed output weights. Read at row p·64 + q and column v, and with every change of float format the
  identity at the extended reals, the three matrix products are plain sums over their contraction index, and the result is
  the sum over h of (sh[p,h] · bh[q,h]) · W_out[v,h], with sh and bh the two biased projections of the block's rows p and q.
-/
import proofs.«174453_j10505490006677_2_alg».proof.Proof.Gen.KernelIdeal.Skeleton
import proofs.«174453_j10505490006677_2_alg».proof.Proof.JoinerSpec
import proofs.«174453_j10505490006677_2_alg».proof.Proof.LibPlainDot
import proofs.«174453_j10505490006677_2_alg».proof.Proof.LibUnitAxisLayout
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Joiner

/-- The first projection of the block's time step `p`, at hidden unit `h`: the product of row `p` of the `s` block with the
    transposed `W_sh`, plus the bias broadcast down the rows. -/
theorem sh_block (P0 : Vec Ideal S1x112x96 .f32) (P2 : Vec Ideal S96x96 .f32) (P3 : Vec Ideal S96 .f32)
    (p : Fin 112) (h : Fin 96) :
    (addf (matmul dot_S112x96_S96x96_S112x96_1_0_0_1_n_n none
        (truncf .bf16 (shapeCast S112x96 P0 shapeCasts_S1x112x96_S112x96) bitsLt_bf16_f32)
        (transpose S96x96 [1, 0] (truncf .bf16 P2 bitsLt_bf16_f32) transposes_S96x96_p1_0_S96x96)
        (constant (F := Ideal) S112x96 .f32 0x00000000#32))
      (broadcastTo S112x96 (shapeCast S1x96 P3 shapeCasts_S96_S1x96) broadcasts_S1x96_S112x96)) (ix2 p h)
      = shAt (fun k => P0 (ix3 (0 : Fin 1) p k)) (fun h k => P2 (ix2 h k)) (fun h => P3 (ix1 h)) h := by
  unfold shAt
  rw [addf_apply]
  refine congrArg₂ (· + ·) ?_ ?_
  · refine (Cert.Lib.matmul_zero_apply _ none _ _ p h).trans (Finset.sum_congr rfl fun k _ => congrArg₂ (· * ·) ?_ ?_)
    · exact shapeCast_1ab_ab_apply P0 _ p k
    · exact transpose_ix2_apply _ _ k h
  · exact (broadcastTo_1b_ab_apply _ _ p h).trans (shapeCast_a_1a_apply P3 _ 0 h)

/-- The second projection of the block's label position `q`, at hidden unit `h`, after the rectifier. -/
theorem bh_block (P1 : Vec Ideal S1x64x32 .f32) (P4 : Vec Ideal S96x32 .f32) (P5 : Vec Ideal S96 .f32)
    (q : Fin 64) (h : Fin 96) :
    (maximumf (addf (matmul dot_S64x32_S32x96_S64x96_1_0_0_1_n_n none
          (truncf .bf16 (shapeCast S64x32 P1 shapeCasts_S1x64x32_S64x32) bitsLt_bf16_f32)
          (transpose S32x96 [1, 0] (truncf .bf16 P4 bitsLt_bf16_f32) transposes_S96x32_p1_0_S32x96)
          (constant (F := Ideal) S64x96 .f32 0x00000000#32))
        (broadcastTo S64x96 (shapeCast S1x96 P5 shapeCasts_S96_S1x96) broadcasts_S1x96_S64x96))
      (broadcast S64x96 (Scalar.ofBits (F := Ideal) .f32 0x00000000#32))) (ix2 q h)
      = bhAt (fun k => P1 (ix3 (0 : Fin 1) q k)) (fun h k => P4 (ix2 h k)) (fun h => P5 (ix1 h)) h := by
  unfold bhAt
  rw [maximumf_apply, addf_apply]
  refine congrArg₂ max (congrArg₂ (· + ·) ?_ ?_) rfl
  · refine (Cert.Lib.matmul_zero_apply _ none _ _ q h).trans (Finset.sum_congr rfl fun k _ => congrArg₂ (· * ·) ?_ ?_)
    · exact shapeCast_1ab_ab_apply P1 _ q k
    · exact transpose_ix2_apply _ _ k h
  · exact (broadcastTo_1b_ab_apply _ _ q h).trans (shapeCast_a_1a_apply P5 _ 0 h)

/-- THE MATRIX PRODUCT OF THE BODY at row `p·64 + q` and column `v`: the sum over the hidden units of the two projections'
    product against row `v` of `W_out`. -/
theorem pay2_apply (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (p : Fin 112) (q : Fin 64) (v : Fin 128) (hr : p.val * 64 + q.val < 7168) :
    k0_pay2 (F := Ideal) P0 P1 P2 P3 P4 P5 P6 (ix2 (⟨p.val * 64 + q.val, hr⟩ : Fin 7168) v)
      = ∑ h : Fin 96,
          (shAt (fun k => P0 (ix3 (0 : Fin 1) p k)) (fun h k => P2 (ix2 h k)) (fun h => P3 (ix1 h)) h
            * bhAt (fun k => P1 (ix3 (0 : Fin 1) q k)) (fun h k => P4 (ix2 h k)) (fun h => P5 (ix1 h)) h)
          * P6 (ix2 v h) := by
  unfold k0_pay2
  refine (Cert.Lib.matmul_zero_apply _ none _ _ (⟨p.val * 64 + q.val, hr⟩ : Fin 7168) v).trans
    (Finset.sum_congr rfl fun h _ => congrArg₂ (· * ·) ?_ ?_)
  · refine (Cert.Lib.shapeCast_abc_nc_apply _ _ p q h hr).trans ?_
    rw [truncf_apply, mulf_apply]
    refine congrArg₂ (· * ·) ?_ ?_
    · exact ((Cert.Lib.broadcastTo_a1c_abc_apply _ _ p q h).trans
        (Cert.Lib.shapeCast_ab_a1b_apply _ _ p 0 h)).trans (sh_block P0 P2 P3 p h)
    · exact ((Cert.Lib.broadcastTo_1bc_abc_apply _ _ p q h).trans
        (shapeCast_ab_1ab_apply _ _ 0 q h)).trans (bh_block P1 P4 P5 q h)
  · exact transpose_ix2_apply _ _ h v

end Cert.KernelIdeal.Block

end
-- ==== Proof.KernelBlock.lean ====
/-
  One block of the kernel's output, index by index, over the extended reals.

  After the matrix product the body adds the output bias, reshapes the 7168 rows back to (time step, label position),
  and takes the log-softmax along the 128 logits: the row's maximum (a lane reduction folded from -inf, then taken against
  -inf again), the shifted row, the sum of its exponentials (a lane reduction from zero), and the shifted row minus the
  logarithm of that sum. A lane reduction along the last axis, read at (p, q), runs over the entries (p, q, k); so every
  entry (0, p, q, v) of the block is the log-softmax, at v, of the row of logits of time step p and label position q.
-/
import proofs.«174453_j10505490006677_2_alg».proof.Proof.KernelIdealValueP
import proofs.«174453_j10505490006677_2_alg».proof.Proof.KernelLogits

noncomputable section

namespace Cert.KernelIdeal.Block

open Cert.KernelIdeal Cert.KernelIdeal.Gen Idealize.ShloMosaic Idealize.ShloMosaic.ValueIdx Cert.Joiner

/-- A lane maximum along the last axis of a [112, 64, 128] array, read at (p, q): the fold of `max` from -inf over the
    row (p, q, ·). -/
theorem laneMax_apply (X : FVec Ideal S112x64x128 .f32) (f : Fin 128 → EReal) (p : Fin 112) (q : Fin 64)
    (hX : ∀ k : Fin 128, X (ix3 p q k) = f k) :
    multiReduction .maximumf [2] S112x64 X 0xFF800000#32 reduces_S112x64x128_S112x64 (.inl rfl) rfl (ix2 p q)
      = (Finset.univ : Finset (Fin 128)).fold max negInfW f := by
  refine (Ideal.multiReduction_maximumf_single X _ reduces_S112x64x128_S112x64 (.inl rfl) rfl (ix2 p q)).trans ?_
  have hf : (X ∘ (reduces_S112x64x128_S112x64).lift (ix2 p q)) = f := funext fun k => by
    show X ((reduces_S112x64x128_S112x64).lift (ix2 p q) k) = f k
    rw [Cert.Lib.lift_last_ix3]
    exact hX _
  rw [hf]
  rfl

/-- A lane sum along the last axis of a [112, 64, 128] array, read at (p, q): the sum over the row (p, q, ·). -/
theorem laneSum_apply (Y : FVec Ideal S112x64x128 .f32) (g : Fin 128 → EReal) (p : Fin 112) (q : Fin 64)
    (hY : ∀ k : Fin 128, Y (ix3 p q k) = g k) :
    multiReduction .add [2] S112x64 Y 0x00000000#32 reduces_S112x64x128_S112x64 (.inl rfl) rfl (ix2 p q)
      = ∑ k : Fin 128, g k := by
  refine (Ideal.multiReduction_add_single Y _ reduces_S112x64x128_S112x64 (.inl rfl) rfl (ix2 p q)).trans ?_
  refine Finset.sum_congr rfl fun k _ => ?_
  exact (congrArg Y (Cert.Lib.lift_last_ix3 reduces_S112x64x128_S112x64 p q k)).trans (hY _)

/-- The block's logits as the body holds them, [112, 64, 128]: the matrix product plus the output bias, reshaped. -/
abbrev blockLogits (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (P7 : Vec Ideal S128 .f32) : FVec Ideal S112x64x128 .f32 :=
  shapeCast S112x64x128 (addf (k0_pay2 (F := Ideal) P0 P1 P2 P3 P4 P5 P6)
    (broadcastTo S7168x128 (shapeCast S1x128 P7 shapeCasts_S128_S1x128) broadcasts_S1x128_S7168x128))
    shapeCasts_S7168x128_S112x64x128

/-- The row of logits of time step `p` and label position `q` of a block, from the block's operands. -/
abbrev blockRow (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (P7 : Vec Ideal S128 .f32) (p : Fin 112) (q : Fin 64) : Fin 128 → EReal :=
  logitAt (fun k => P0 (ix3 (0 : Fin 1) p k)) (fun k => P1 (ix3 (0 : Fin 1) q k)) (fun h k => P2 (ix2 h k))
    (fun h => P3 (ix1 h)) (fun h k => P4 (ix2 h k)) (fun h => P5 (ix1 h)) (fun v h => P6 (ix2 v h)) (fun v => P7 (ix1 v))

/-- The block's logits at (p, q, v). -/
theorem blockLogits_apply (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (P7 : Vec Ideal S128 .f32) (p : Fin 112) (q : Fin 64) (v : Fin 128) :
    blockLogits P0 P1 P2 P3 P4 P5 P6 P7 (ix3 p q v) = blockRow P0 P1 P2 P3 P4 P5 P6 P7 p q v := by
  have hr : p.val * 64 + q.val < 7168 := by have := p.isLt; have := q.isLt; omega
  refine (Cert.Lib.shapeCast_nc_abc_apply _ _ p q v hr).trans ?_
  rw [addf_apply]
  unfold blockRow logitAt
  refine congrArg₂ (· + ·) (pay2_apply P0 P1 P2 P3 P4 P5 P6 p q v hr) ?_
  exact (broadcastTo_1b_ab_apply _ _ _ v).trans (shapeCast_a_1a_apply P7 _ 0 v)

/-- The row maximum the body subtracts, at (p, q). -/
theorem blockMax_apply (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (P7 : Vec Ideal S128 .f32) (p : Fin 112) (q : Fin 64) :
    max (Scalar.ofBits (F := Ideal) .f32 0xFF800000#32)
        (multiReduction .maximumf [2] S112x64 (blockLogits P0 P1 P2 P3 P4 P5 P6 P7) 0xFF800000#32
          reduces_S112x64x128_S112x64 (.inl rfl) rfl (ix2 p q))
      = rowMax (blockRow P0 P1 P2 P3 P4 P5 P6 P7 p q) :=
  congrArg (max negInfW) (laneMax_apply _ _ p q fun k => blockLogits_apply P0 P1 P2 P3 P4 P5 P6 P7 p q k)

/-- The exponential of a [112, 64, 128] array shifted by a [112, 64] array of per-row values (cast to [112, 64, 1] and
    broadcast along the last axis), at (p, q, k). -/
theorem expShift_apply (X : FVec Ideal S112x64x128 .f32) (M : FVec Ideal S112x64 .f32) (p : Fin 112) (q : Fin 64)
    (k : Fin 128) :
    (exp (subf X (broadcastTo S112x64x128 (shapeCast S112x64x1 M shapeCasts_S112x64_S112x64x1)
        broadcasts_S112x64x1_S112x64x128))) (ix3 p q k)
      = Ideal.exp (X (ix3 p q k) - M (ix2 p q)) := by
  show Ideal.exp (X (ix3 p q k) - (broadcastTo S112x64x128 (shapeCast S112x64x1 M shapeCasts_S112x64_S112x64x1)
        broadcasts_S112x64x1_S112x64x128) (ix3 p q k)) = _
  refine congrArg (fun z => Ideal.exp (X (ix3 p q k) - z)) ?_
  exact (Cert.Lib.broadcastTo_ab1_abc_apply _ _ p q k).trans (Cert.Lib.shapeCast_ab_ab1_apply _ _ p q 0)

/-- The same with the per-row values a maximum against one scalar: the shift is `max c (R (p, q))`. -/
theorem expShiftMax_apply (X : FVec Ideal S112x64x128 .f32) (R : FVec Ideal S112x64 .f32) (c : Ideal .f32) (p : Fin 112)
    (q : Fin 64) (k : Fin 128) :
    (exp (subf X (broadcastTo S112x64x128 (shapeCast S112x64x1 (maximumf (broadcast S112x64 c) R)
        shapeCasts_S112x64_S112x64x1) broadcasts_S112x64x1_S112x64x128))) (ix3 p q k)
      = Ideal.exp (X (ix3 p q k) - max c (R (ix2 p q))) :=
  expShift_apply X (maximumf (broadcast S112x64 c) R) p q k

/-- THE BLOCK, INDEX BY INDEX: entry (0, p, q, v) of what a grid point leaves in its output block is the log-softmax, at
    `v`, of the row of logits of the block's time step `p` and label position `q`. -/
theorem E8_apply (P0 : Vec Ideal S1x112x96 .f32) (P1 : Vec Ideal S1x64x32 .f32) (P2 : Vec Ideal S96x96 .f32)
    (P3 : Vec Ideal S96 .f32) (P4 : Vec Ideal S96x32 .f32) (P5 : Vec Ideal S96 .f32) (P6 : Vec Ideal S128x96 .f32)
    (P7 : Vec Ideal S128 .f32) (p : Fin 112) (q : Fin 64) (v : Fin 128) :
    Cert.KernelIdeal.ValueP.E8 (F := Ideal) P0 P1 P2 P3 P4 P5 P6 P7 (ix4 (0 : Fin 1) p q v)
      = logSoftmaxAt (blockRow P0 P1 P2 P3 P4 P5 P6 P7 p q) v := by
  have hr : p.val * 64 + q.val < 7168 := by have := p.isLt; have := q.isLt; omega
  have i0 : Cert.KernelIdeal.ValueP.ix8_0 (ix4 (0 : Fin 1) p q v) = ix2 (⟨p.val * 64 + q.val, hr⟩ : Fin 7168) v :=
    funext fun a => Fin.ext (by match a with | ⟨0, _⟩ => rfl | ⟨1, _⟩ => rfl)
  have i1 : Cert.KernelIdeal.ValueP.ix8_1 (ix4 (0 : Fin 1) p q v) = ix1 v :=
    funext fun a => Fin.ext (by match a with | ⟨0, _⟩ => rfl)
  have i2 : Cert.KernelIdeal.ValueP.ix8_2 (ix4 (0 : Fin 1) p q v) = ix2 p q :=
    funext fun a => Fin.ext (by match a with | ⟨0, _⟩ => rfl | ⟨1, _⟩ => rfl)
  have i3 : Cert.KernelIdeal.ValueP.ix8_3 (ix4 (0 : Fin 1) p q v) = ix2 p q :=
    funext fun a => Fin.ext (by match a with | ⟨0, _⟩ => rfl | ⟨1, _⟩ => rfl)
  unfold Cert.KernelIdeal.ValueP.E8
  beta_reduce
  rw [i0, i1, i2, i3]
  unfold logSoftmaxAt
  refine congrArg₂ (· - ·) (congrArg₂ (· - ·) ?_ ?_) (congrArg Ideal.log ?_)
  · -- the logit itself: the matrix product at row p·64 + q plus the bias
    unfold blockRow logitAt
    exact congrArg (· + P7 (ix1 v)) (pay2_apply P0 P1 P2 P3 P4 P5 P6 p q v hr)
  · exact blockMax_apply P0 P1 P2 P3 P4 P5 P6 P7 p q
  · refine laneSum_apply _ (fun w => Ideal.exp (blockRow P0 P1 P2 P3 P4 P5 P6 P7 p q w
        - rowMax (blockRow P0 P1 P2 P3 P4 P5 P6 P7 p q))) p q fun k => ?_
    refine (expShiftMax_apply (blockLogits P0 P1 P2 P3 P4 P5 P6 P7) _ _ p q k).trans ?_
    exact congrArg Ideal.exp (congrArg₂ (· - ·) (blockLogits_apply P0 P1 P2 P3 P4 P5 P6 P7 p q k)
      (blockMax_apply P0 P1 P2 P3 P4 P5 P6 P7 p q))

end Cert.KernelIdeal.Block

end
-- ==== Proof.KernelArray.lean ====
/-
  From the kernel's blocks to its whole output array.

  The grid has 4 · 4 · 7 points (batch entry, tile of 112 time steps, tile of 64 label positions). At a point the `s`
  window holds the 112 rows of its batch entry and time tile, the `b` window the 64 rows of its batch entry and label tile,
  the six parameter windows their whole arrays, and the output window the [1, 112, 64, 128] block at (batch entry, time
  tile, label tile, 0). An element of a block sits in its array at block index × block size + the coordinate inside the
  block; so row p of the `s` block and row q of the `b` block are the rows of `s` and `b` that the output block's entry
  (0, p, q, v) needs, and what the point writes back is the block of ONE function of the eight arrays — the specification.
  The output blocks tile the array (entry (b, t, u, v) lies in the block of the point (b, t / 112, u / 64)), so after the
  run the array is that function everywhere.
-/
import proofs.«174453_j10505490006677_2_alg».proof.Proof.KernelBlock

noncomputable section

namespace Cert.KernelIdeal.ArrayValue

open Cert.KernelIdeal Cert.KernelIdeal.Gen Cert.KernelIdeal.Block Idealize.ShloMosaic Idealize.ShloMosaic.TcCoe
open Idealize.SL.Sem Idealize.ShloMosaic.ValueIdx Cert.Joiner
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, from the eight staged blocks as variables: entry (0, p, q, v) is the
    log-softmax, at `v`, of the logits of the blocks' rows `p` and `q`. -/
theorem out_apply (x0 : Vec Ideal S1x112x96 .f32) (x1 : Vec Ideal S1x64x32 .f32) (x2 : Vec Ideal S96x96 .f32)
    (x3 : Vec Ideal S96 .f32) (x4 : Vec Ideal S96x32 .f32) (x5 : Vec Ideal S96 .f32) (x6 : Vec Ideal S128x96 .f32)
    (x7 : Vec Ideal S128 .f32) (p : Fin 112) (q : Fin 64) (v : Fin 128) :
    out0_8 (F := Ideal) x0 x1 x2 x3 x4 x5 x6 x7 (ix4 (0 : Fin 1) p q v)
      = logSoftmaxAt (blockRow x0 x1 x2 x3 x4 x5 x6 x7 p q) v := by
  unfold out0_8
  simp only [View.ld_unit_zero (S := S1x112x96) hz3, View.ld_unit_zero (S := S1x64x32) hz3,
    View.ld_unit_zero (S := S96x96) hz2, View.ld_unit_zero (S := S96) hz1, View.ld_unit_zero (S := S96x32) hz2,
    View.ld_unit_zero (S := S128x96) hz2, View.ld_unit_zero (S := S128) hz1]
  exact (Cert.KernelIdeal.ValueP.canon8_eq x0 x1 x2 x3 x4 x5 x6 x7 _).trans (E8_apply x0 x1 x2 x3 x4 x5 x6 x7 p q v)

/-- The logits of a row do not change when each operand row is replaced by an equal one. -/
theorem logitAt_congr {a1 b1 : Fin 96 → EReal} {a2 b2 : Fin 32 → EReal} {a3 b3 : Fin 96 → Fin 96 → EReal}
    {a4 b4 : Fin 96 → EReal} {a5 b5 : Fin 96 → Fin 32 → EReal} {a6 b6 : Fin 96 → EReal}
    {a7 b7 : Fin 128 → Fin 96 → EReal} {a8 b8 : Fin 128 → EReal}
    (h1 : a1 = b1) (h2 : a2 = b2) (h3 : a3 = b3) (h4 : a4 = b4) (h5 : a5 = b5) (h6 : a6 = b6) (h7 : a7 = b7) (h8 : a8 = b8) :
    logitAt a1 a2 a3 a4 a5 a6 a7 a8 = logitAt b1 b2 b3 b4 b5 b6 b7 b8 := by
  rw [h1, h2, h3, h4, h5, h6, h7, h8]

/-- The printed index maps, decided over the 112 grid points: the `s` window moves with the output window's batch and
    time-tile indices, the `b` window with its batch and label-tile indices, the parameter windows stay at zero, and the
    output window's indices stay in their ranges. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = win0_8.index t (2 : Fin 4)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 4) ≤ 3 ∧ win0_8.index t (1 : Fin 4) ≤ 3 ∧ win0_8.index t (2 : Fin 4) ≤ 6
    ∧ win0_8.index t (3 : Fin 4) = 0 :=
  (by decide +kernel : ∀ t : Fin grid0.N, _)

/-- Every block of the output array is some point's. -/
theorem idx_onto : ∀ (q0 : Fin 4) (q1 : Fin 4) (q2 : Fin 7), ∃ t : Fin cfg0.N,
    win0_8.index t = ![q0.val, q1.val, q2.val, 0] :=
  (by decide +kernel : ∀ (q0 : Fin 4) (q1 : Fin 4) (q2 : Fin 7), ∃ t : Fin grid0.N,
    win0_8.index t = ![q0.val, q1.val, q2.val, 0])

/-- WHAT POINT `t` WRITES BACK is block `t` of the specification's function of the argument arrays as the region finds
    them. -/
theorem flushed_eq (c : Dev nD) (t : Fin cfg0.N) :
    (dats m 0 c).flushed 8 t
      = ((cfg0.win 8).blk t).view.read (Elt Ideal) (G (V m c main_arg0) (V m c main_arg1) (V m c main_arg2) (V m c main_arg3) (V m c main_arg4) (V m c main_arg5) (V m c main_arg6) (V m c main_arg7)) := by
  rw [Cert.KernelIdeal.ValueP.flushed8]
  obtain ⟨e00, e01, e02, e10, e11, e12, e20, e21, e30, e40, e41, e50, e60, e61, e70, b0, b1, b2, e83⟩ := idx_facts t
  funext y
  obtain ⟨y0, p, q, v, rfl⟩ : ∃ (y0 : Fin 1) (p : Fin 112) (q : Fin 64) (v : Fin 128), y = ix4 y0 p q v :=
    ⟨y 0, y 1, y 2, y 3, eq_ix4 y⟩
  have hy0 : y0 = 0 := Fin.ext (by have := y0.isLt; omega)
  subst hy0
  show out0_8 (iblk m c 0 t) (iblk m c 1 t) (iblk m c 2 t) (iblk m c 3 t) (iblk m c 4 t) (iblk m c 5 t) (iblk m c 6 t) (iblk m c 7 t) (ix4 (0 : Fin 1) p q v)
    = G (V m c main_arg0) (V m c main_arg1) (V m c main_arg2) (V m c main_arg3) (V m c main_arg4) (V m c main_arg5) (V m c main_arg6) (V m c main_arg7) (((cfg0.win 8).blk t).view.emb (ix4 (0 : Fin 1) p q v))
  refine (out_apply (iblk m c 0 t) (iblk m c 1 t) (iblk m c 2 t) (iblk m c 3 t) (iblk m c 4 t) (iblk m c 5 t) (iblk m c 6 t) (iblk m c 7 t) p q v).trans ?_
  have hp := p.isLt
  have hq := q.isLt
  have hv := v.isLt
  -- the array coordinates of the block's entry (0, p, q, v)
  have c0 : ((((cfg0.win 8).blk t).view.emb (ix4 (0 : Fin 1) p q v)) 0).val = win0_8.index t (0 : Fin 4) * 1 + 1 * 0 := rfl
  have c1 : ((((cfg0.win 8).blk t).view.emb (ix4 (0 : Fin 1) p q v)) 1).val = win0_8.index t (1 : Fin 4) * 112 + 1 * p.val := rfl
  have c2 : ((((cfg0.win 8).blk t).view.emb (ix4 (0 : Fin 1) p q v)) 2).val = win0_8.index t (2 : Fin 4) * 64 + 1 * q.val := rfl
  have c3 : ((((cfg0.win 8).blk t).view.emb (ix4 (0 : Fin 1) p q v)) 3).val = win0_8.index t (3 : Fin 4) * 128 + 1 * v.val := rfl
  generalize ((cfg0.win 8).blk t).view.emb (ix4 (0 : Fin 1) p q v) = i at c0 c1 c2 c3
  have hv3 : i 3 = v := Fin.ext (by rw [c3]; omega)
  -- each staged block's row is the array's row the entry needs
  have r0 : (fun k : Fin 96 => iblk m c 0 t (ix3 (0 : Fin 1) p k)) = fun k => V m c main_arg0 (ix3 (i 0) (i 1) k) :=
    funext fun k => by
      show V m c main_arg0 (((cfg0.win 0).blk t).view.emb (ix3 (0 : Fin 1) p k)) = V m c main_arg0 (ix3 (i 0) (i 1) k)
      refine congrArg (V m c main_arg0) (funext fun a => Fin.ext ?_)
      match a with
      | ⟨0, _⟩ => show win0_0.index t (0 : Fin 3) * 1 + 1 * 0 = (i 0).val; omega
      | ⟨1, _⟩ => show win0_0.index t (1 : Fin 3) * 112 + 1 * p.val = (i 1).val; omega
      | ⟨2, _⟩ => show win0_0.index t (2 : Fin 3) * 96 + 1 * k.val = k.val; omega
  have r1 : (fun k : Fin 32 => iblk m c 1 t (ix3 (0 : Fin 1) q k)) = fun k => V m c main_arg1 (ix3 (i 0) (i 2) k) :=
    funext fun k => by
      show V m c main_arg1 (((cfg0.win 1).blk t).view.emb (ix3 (0 : Fin 1) q k)) = V m c main_arg1 (ix3 (i 0) (i 2) k)
      refine congrArg (V m c main_arg1) (funext fun a => Fin.ext ?_)
      match a with
      | ⟨0, _⟩ => show win0_1.index t (0 : Fin 3) * 1 + 1 * 0 = (i 0).val; omega
      | ⟨1, _⟩ => show win0_1.index t (1 : Fin 3) * 64 + 1 * q.val = (i 2).val; omega
      | ⟨2, _⟩ => show win0_1.index t (2 : Fin 3) * 32 + 1 * k.val = k.val; omega
  have r2 : (fun (h : Fin 96) (k : Fin 96) => iblk m c 2 t (ix2 h k)) = fun h k => V m c main_arg2 (ix2 h k) :=
    funext fun h => funext fun k => by
      show V m c main_arg2 (((cfg0.win 2).blk t).view.emb (ix2 h k)) = V m c main_arg2 (ix2 h k)
      refine congrArg (V m c main_arg2) (funext fun a => Fin.ext ?_)
      match a with
      | ⟨0, _⟩ => show win0_2.index t (0 : Fin 2) * 96 + 1 * h.val = h.val; omega
      | ⟨1, _⟩ => show win0_2.index t (1 : Fin 2) * 96 + 1 * k.val = k.val; omega
  have r3 : (fun h : Fin 96 => iblk m c 3 t (ix1 h)) = fun h => V m c main_arg3 (ix1 h) :=
    funext fun h => by
      show V m c main_arg3 (((cfg0.win 3).blk t).view.emb (ix1 h)) = V m c main_arg3 (ix1 h)
      refine congrArg (V m c main_arg3) (funext fun a => Fin.ext ?_)
      match a with
      | ⟨0, _⟩ => show win0_3.index t (0 : Fin 1) * 96 + 1 * h.val = h.val; omega
  have r4 : (fun (h : Fin 96) (k : Fin 32) => iblk m c 4 t (ix2 h k)) = fun h k => V m c main_arg4 (ix2 h k) :=
    funext fun h => funext fun k => by
      show V m c main_arg4 (((cfg0.win 4).blk t).view.emb (ix2 h k)) = V m c main_arg4 (ix2 h k)
      refine congrArg (V m c main_arg4) (funext fun a => Fin.ext ?_)
      match a with
      | ⟨0, _⟩ => show win0_4.index t (0 : Fin 2) * 96 + 1 * h.val = h.val; omega
      | ⟨1, _⟩ => show win0_4.index t (1 : Fin 2) * 32 + 1 * k.val = k.val; omega
  have r5 : (fun h : Fin 96 => iblk m c 5 t (ix1 h)) = fun h => V m c main_arg5 (ix1 h) :=
    funext fun h => by
      show V m c main_arg5 (((cfg0.win 5).blk t).view.emb (ix1 h)) = V m c main_arg5 (ix1 h)
      refine congrArg (V m c main_arg5) (funext fun a => Fin.ext ?_)
      match a with
      | ⟨0, _⟩ => show win0_5.index t (0 : Fin 1) * 96 + 1 * h.val = h.val; omega
  have r6 : (fun (w : Fin 128) (h : Fin 96) => iblk m c 6 t (ix2 w h)) = fun w h => V m c main_arg6 (ix2 w h) :=
    funext fun w => funext fun h => by
      show V m c main_arg6 (((cfg0.win 6).blk t).view.emb (ix2 w h)) = V m c main_arg6 (ix2 w h)
      refine congrArg (V m c main_arg6) (funext fun a => Fin.ext ?_)
      match a with
      | ⟨0, _⟩ => show win0_6.index t (0 : Fin 2) * 128 + 1 * w.val = w.val; omega
      | ⟨1, _⟩ => show win0_6.index t (1 : Fin 2) * 96 + 1 * h.val = h.val; omega
  have r7 : (fun w : Fin 128 => iblk m c 7 t (ix1 w)) = fun w => V m c main_arg7 (ix1 w) :=
    funext fun w => by
      show V m c main_arg7 (((cfg0.win 7).blk t).view.emb (ix1 w)) = V m c main_arg7 (ix1 w)
      refine congrArg (V m c main_arg7) (funext fun a => Fin.ext ?_)
      match a with
      | ⟨0, _⟩ => show win0_7.index t (0 : Fin 1) * 128 + 1 * w.val = w.val; omega
  unfold G
  rw [hv3]
  exact congrArg (fun f => logSoftmaxAt f v) (logitAt_congr r0 r1 r2 r3 r4 r5 r6 r7)

/-- An index of the array is in point `t`'s block iff each coordinate is in the block's range on its axis. -/
theorem mem_blk (t : Fin cfg0.N) (i : S4x448x448x128.Idx) :
    i ∈ ((cfg0.win 8).blk t).view.set ↔ ∀ a : Fin 4, win0_8.index t a * S1x112x64x128.size a ≤ (i a).val
      ∧ (i a).val < win0_8.index t a * S1x112x64x128.size a + S1x112x64x128.size a := by
  show i ∈ ((View.whole main_v0).slice (win0_8.rect t)).set ↔ _
  rw [View.set_slice_whole, Rect.mem_set_unit]
  exact Iff.rfl

/-- THE BLOCKS TILE THE ARRAY: entry (b, t, u, v) lies in the block of the point (b, t / 112, u / 64). -/
theorem cover (i : S4x448x448x128.Idx) :
    ∃ t : Fin cfg0.N, (cfg0.win 8).flush t = true ∧ i ∈ ((cfg0.win 8).blk t).view.set := by
  have hi0 : (i 0).val < 4 := (i 0).isLt
  have hi1 : (i 1).val < 448 := (i 1).isLt
  have hi2 : (i 2).val < 448 := (i 2).isLt
  have hi3 : (i 3).val < 128 := (i 3).isLt
  obtain ⟨t, ht⟩ := idx_onto ⟨(i 0).val, hi0⟩ ⟨(i 1).val / 112, by omega⟩ ⟨(i 2).val / 64, by omega⟩
  have q0 : win0_8.index t (0 : Fin 4) = (i 0).val := congrFun ht 0
  have q1 : win0_8.index t (1 : Fin 4) = (i 1).val / 112 := congrFun ht 1
  have q2 : win0_8.index t (2 : Fin 4) = (i 2).val / 64 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 112 ≤ (i 1).val ∧ (i 1).val < win0_8.index t (1 : Fin 4) * 112 + 112; omega
  | ⟨2, _⟩ => show win0_8.index t (2 : Fin 4) * 64 ≤ (i 2).val ∧ (i 2).val < win0_8.index t (2 : Fin 4) * 64 + 64; omega
  | ⟨3, _⟩ => show win0_8.index t (3 : Fin 4) * 128 ≤ (i 3).val ∧ (i 3).val < win0_8.index t (3 : Fin 4) * 128 + 128; omega

/-- THE ARRAY after the run is the specification's function of the argument arrays. -/
theorem final (c : Dev nD) :
    (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (G (V m c main_arg0) (V m c main_arg1) (V m c main_arg2) (V m c main_arg3) (V m c main_arg4) (V m c main_arg5) (V m c main_arg6) (V m c main_arg7)) (fun t _ => flushed_eq m c t) cover

/-- THE KERNEL'S RUN, READ: every weakly fair execution terminates with the output array at the specification's function of
    the argument arrays, and the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.ValueP.run_blocks m ρ)

end Cert.KernelIdeal.ArrayValue

end
-- ==== Proof.ReferenceValue.lean ====
/-
  The reference, index by index, over the extended reals.

  The reference computes the two projections as contractions over the last axis of `s` and of `b` with the rows of the
  weight matrices, adds the biases, rectifies the second, broadcasts the two [4, 448, 96] arrays against each other to
  [4, 448, 448, 96], multiplies, contracts with the rows of `W_out`, adds the output bias, and takes the log-softmax
  along the last axis: the maximum of each row of 128 logits (a reduction from -inf, taken against -inf again), the
  shifted row, the sum of its exponentials (a reduction from zero), the shifted row minus the logarithm of the sum.
  Read at (b, t, u, v), every broadcast is a choice of coordinates and every contraction a sum over its one contracted
  axis, so the result is the specification's function of the eight arrays.
-/
import proofs.«174453_j10505490006677_2_alg».proof.Proof.ReferenceIdealReadP
import proofs.«174453_j10505490006677_2_alg».proof.Proof.JoinerSpec
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx
open Cert.Joiner

/-- The first projection at (b, t, h). -/
theorem ref_sh (x0 : (⟨S4x448x96, .f32⟩ : BufTy).Contents (Elt Ideal)) (x2 : (⟨S96x96, .f32⟩ : BufTy).Contents (Elt Ideal))
    (x3 : (⟨S96, .f32⟩ : BufTy).Contents (Elt Ideal)) (b : Fin 4) (t : Fin 448) (h : Fin 96) :
    val_main_v3 (F := Ideal) x0 x2 x3 (ix3 b t h)
      = shAt (fun k => x0 (ix3 b t k)) (fun h k => x2 (ix2 h k)) (fun h => x3 (ix1 h)) h := by
  have el : ∀ k : Fin 96, lidx_main_v0 (ix3 b t h) k = ix3 b t k := fun k =>
    funext fun a => Fin.ext (by match a with | ⟨0, _⟩ => rfl | ⟨1, _⟩ => rfl | ⟨2, _⟩ => rfl)
  have er : ∀ k : Fin 96, ridx_main_v0 (ix3 b t h) k = ix2 h k := fun k =>
    funext fun a => Fin.ext (by match a with | ⟨0, _⟩ => rfl | ⟨1, _⟩ => rfl)
  have eb : idx_main_v1 (idx_main_v2 (ix3 b t h)) = ix1 h :=
    funext fun a => Fin.ext (by match a with | ⟨0, _⟩ => rfl)
  rw [val_main_v3_apply, val_main_v0_apply, val_main_v2_apply, val_main_v1_apply, eb]
  unfold shAt
  exact congrArg (· + x3 (ix1 h)) (Finset.sum_congr rfl fun k _ => by rw [el, er])

/-- The second projection, rectified, at (b, u, h). -/
theorem ref_bh (x1 : (⟨S4x448x32, .f32⟩ : BufTy).Contents (Elt Ideal)) (x4 : (⟨S96x32, .f32⟩ : BufTy).Contents (Elt Ideal))
    (x5 : (⟨S96, .f32⟩ : BufTy).Contents (Elt Ideal)) (b : Fin 4) (u : Fin 448) (h : Fin 96) :
    val_main_v9 (F := Ideal) x1 x4 x5 (ix3 b u h)
      = bhAt (fun k => x1 (ix3 b u k)) (fun h k => x4 (ix2 h k)) (fun h => x5 (ix1 h)) h := by
  have el : ∀ k : Fin 32, lidx_main_v4 (ix3 b u h) k = ix3 b u k := fun k =>
    funext fun a => Fin.ext (by match a with | ⟨0, _⟩ => rfl | ⟨1, _⟩ => rfl | ⟨2, _⟩ => rfl)
  have er : ∀ k : Fin 32, ridx_main_v4 (ix3 b u h) k = ix2 h k := fun k =>
    funext fun a => Fin.ext (by match a with | ⟨0, _⟩ => rfl | ⟨1, _⟩ => rfl)
  have eb : idx_main_v5 (idx_main_v6 (ix3 b u h)) = ix1 h :=
    funext fun a => Fin.ext (by match a with | ⟨0, _⟩ => rfl)
  rw [val_main_v9_apply, val_main_v7_apply, val_main_v4_apply, val_main_v6_apply, val_main_v5_apply, eb,
    val_main_call0_v0_apply, val_main_call0_cst_apply]
  unfold bhAt
  exact congrArg (fun z => max (z + x5 (ix1 h)) zeroW) (Finset.sum_congr rfl fun k _ => by rw [el, er])

/-- The logit at (b, t, u, v). -/
theorem ref_logit (x0 : (⟨S4x448x96, .f32⟩ : BufTy).Contents (Elt Ideal)) (x1 : (⟨S4x448x32, .f32⟩ : BufTy).Contents (Elt Ideal))
    (x2 : (⟨S96x96, .f32⟩ : BufTy).Contents (Elt Ideal)) (x3 : (⟨S96, .f32⟩ : BufTy).Contents (Elt Ideal))
    (x4 : (⟨S96x32, .f32⟩ : BufTy).Contents (Elt Ideal)) (x5 : (⟨S96, .f32⟩ : BufTy).Contents (Elt Ideal))
    (x6 : (⟨S128x96, .f32⟩ : BufTy).Contents (Elt Ideal)) (x7 : (⟨S128, .f32⟩ : BufTy).Contents (Elt Ideal))
    (b : Fin 4) (t : Fin 448) (u : Fin 448) (v : Fin 128) :
    val_main_v17 (F := Ideal) x0 x1 x2 x3 x4 x5 x6 x7 (ix4 b t u v)
      = logitAt (fun k => x0 (ix3 b t k)) (fun k => x1 (ix3 b u k)) (fun h k => x2 (ix2 h k)) (fun h => x3 (ix1 h))
          (fun h k => x4 (ix2 h k)) (fun h => x5 (ix1 h)) (fun v h => x6 (ix2 v h)) (fun v => x7 (ix1 v)) v := by
  have el : ∀ k : Fin 96, lidx_main_v14 (ix4 b t u v) k = ix4 b t u k := fun k =>
    funext fun a => Fin.ext (by match a with | ⟨0, _⟩ => rfl | ⟨1, _⟩ => rfl | ⟨2, _⟩ => rfl | ⟨3, _⟩ => rfl)
  have er : ∀ k : Fin 96, ridx_main_v14 (ix4 b t u v) k = ix2 v k := fun k =>
    funext fun a => Fin.ext (by match a with | ⟨0, _⟩ => rfl | ⟨1, _⟩ => rfl)
  have e1 : ∀ k : Fin 96, idx_main_v8 (idx_main_v11 (ix4 b t u k)) = ix3 b t k := fun k =>
    funext fun a => Fin.ext (by match a with | ⟨0, _⟩ => rfl | ⟨1, _⟩ => rfl | ⟨2, _⟩ => rfl)
  have e2 : ∀ k : Fin 96, idx_main_v10 (idx_main_v12 (ix4 b t u k)) = ix3 b u k := fun k =>
    funext fun a => Fin.ext (by match a with | ⟨0, _⟩ => rfl | ⟨1, _⟩ => rfl | ⟨2, _⟩ => rfl)
  have eb : idx_main_v15 (idx_main_v16 (ix4 b t u v)) = ix1 v :=
    funext fun a => Fin.ext (by match a with | ⟨0, _⟩ => rfl)
  rw [val_main_v17_apply, val_main_v14_apply, val_main_v16_apply, val_main_v15_apply, eb]
  unfold logitAt
  refine congrArg (· + x7 (ix1 v)) (Finset.sum_congr rfl fun k _ => ?_)
  rw [el, er, val_main_v13_apply, val_main_v11_apply, val_main_v8_apply, e1, val_main_v12_apply, val_main_v10_apply, e2,
    ref_sh, ref_bh]
  rfl

/-- The row of logits of (b, t, u), from the eight arrays. -/
abbrev refRow (x0 : (⟨S4x448x96, .f32⟩ : BufTy).Contents (Elt Ideal)) (x1 : (⟨S4x448x32, .f32⟩ : BufTy).Contents (Elt Ideal))
    (x2 : (⟨S96x96, .f32⟩ : BufTy).Contents (Elt Ideal)) (x3 : (⟨S96, .f32⟩ : BufTy).Contents (Elt Ideal))
    (x4 : (⟨S96x32, .f32⟩ : BufTy).Contents (Elt Ideal)) (x5 : (⟨S96, .f32⟩ : BufTy).Contents (Elt Ideal))
    (x6 : (⟨S128x96, .f32⟩ : BufTy).Contents (Elt Ideal)) (x7 : (⟨S128, .f32⟩ : BufTy).Contents (Elt Ideal))
    (b : Fin 4) (t : Fin 448) (u : Fin 448) : Fin 128 → EReal :=
  logitAt (fun k => x0 (ix3 b t k)) (fun k => x1 (ix3 b u k)) (fun h k => x2 (ix2 h k)) (fun h => x3 (ix1 h))
    (fun h k => x4 (ix2 h k)) (fun h => x5 (ix1 h)) (fun v h => x6 (ix2 v h)) (fun v => x7 (ix1 v))

/-- The host's reduction with a maximum body along the last axis of a [4, 448, 448, 128] array, from -inf, read at (b, t, u):
    the fold of `max` from -inf over the row (b, t, u, ·). -/
theorem hostMax_apply (y0 : FVec Ideal S4x448x448x128 .f32) (f : Fin 128 → EReal) (b : Fin 4) (t u : Fin 448)
    (hrow : ∀ k : Fin 128, y0 (ix4 b t u k) = f k) :
    Host.reduce FloatOps.maximumf y0 (constant (F := Ideal) S_ .f32 0xFF800000#32)
        reducesTo_S4x448x448x128_S4x448x448_d3 h_S_ (ix3 b t u)
      = (Finset.univ : Finset (Fin 128)).fold max negInfW f := by
  have hred : S4x448x448x128.Reduces [3] S4x448x448 := by decide
  refine (Host.reduce_eq_fold_single FloatOps.maximumf y0 _ reducesTo_S4x448x448x128_S4x448x448_d3 hred h_S_
    (ix3 b t u)).trans ?_
  have hf : (y0 ∘ hred.lift (ix3 b t u)) = f := funext fun k =>
    (congrArg y0 (funext fun a => Fin.ext (by
      match a with | ⟨0, _⟩ => rfl | ⟨1, _⟩ => rfl | ⟨2, _⟩ => rfl | ⟨3, _⟩ => rfl) :
        hred.lift (ix3 b t u) k = ix4 b t u (⟨k.val, k.isLt⟩ : Fin 128))).trans (hrow _)
  rw [hf]
  rfl

/-- The maximum the reference subtracts, at (b, t, u): the host's reduction with a maximum body along the last axis is the
    fold of `max` from -inf over the row, and the result is taken against -inf once more. -/
theorem ref_max (x0 : (⟨S4x448x96, .f32⟩ : BufTy).Contents (Elt Ideal)) (x1 : (⟨S4x448x32, .f32⟩ : BufTy).Contents (Elt Ideal))
    (x2 : (⟨S96x96, .f32⟩ : BufTy).Contents (Elt Ideal)) (x3 : (⟨S96, .f32⟩ : BufTy).Contents (Elt Ideal))
    (x4 : (⟨S96x32, .f32⟩ : BufTy).Contents (Elt Ideal)) (x5 : (⟨S96, .f32⟩ : BufTy).Contents (Elt Ideal))
    (x6 : (⟨S128x96, .f32⟩ : BufTy).Contents (Elt Ideal)) (x7 : (⟨S128, .f32⟩ : BufTy).Contents (Elt Ideal))
    (b : Fin 4) (t : Fin 448) (u : Fin 448) :
    val_main_call1_v2 (F := Ideal) x0 x1 x2 x3 x4 x5 x6 x7 (ix3 b t u) = rowMax (refRow x0 x1 x2 x3 x4 x5 x6 x7 b t u) := by
  rw [val_main_call1_v2_apply, val_main_call1_v1_apply, val_main_call1_cst_0_apply]
  unfold rowMax
  refine congrArg (max negInfW) ?_
  unfold val_main_call1_v0
  exact hostMax_apply (val_main_v17 (F := Ideal) x0 x1 x2 x3 x4 x5 x6 x7) _ b t u fun k => ref_logit x0 x1 x2 x3 x4 x5 x6 x7 b t u k

/-- THE REFERENCE'S RESULT at (b, t, u, v): the log-softmax, at v, of the row of logits of (b, t, u). -/
theorem ref_out (x0 : (⟨S4x448x96, .f32⟩ : BufTy).Contents (Elt Ideal)) (x1 : (⟨S4x448x32, .f32⟩ : BufTy).Contents (Elt Ideal))
    (x2 : (⟨S96x96, .f32⟩ : BufTy).Contents (Elt Ideal)) (x3 : (⟨S96, .f32⟩ : BufTy).Contents (Elt Ideal))
    (x4 : (⟨S96x32, .f32⟩ : BufTy).Contents (Elt Ideal)) (x5 : (⟨S96, .f32⟩ : BufTy).Contents (Elt Ideal))
    (x6 : (⟨S128x96, .f32⟩ : BufTy).Contents (Elt Ideal)) (x7 : (⟨S128, .f32⟩ : BufTy).Contents (Elt Ideal))
    (b : Fin 4) (t : Fin 448) (u : Fin 448) (v : Fin 128) :
    val_main_v18 (F := Ideal) x0 x1 x2 x3 x4 x5 x6 x7 (ix4 b t u v) = logSoftmaxAt (refRow x0 x1 x2 x3 x4 x5 x6 x7 b t u) v := by
  have e4 : idx_main_call1_v3 (idx_main_call1_v4 (ix4 b t u v)) = ix3 b t u :=
    funext fun a => Fin.ext (by match a with | ⟨0, _⟩ => rfl | ⟨1, _⟩ => rfl | ⟨2, _⟩ => rfl)
  have e10 : idx_main_call1_v8 (idx_main_call1_v10 (ix4 b t u v)) = ix3 b t u :=
    funext fun a => Fin.ext (by match a with | ⟨0, _⟩ => rfl | ⟨1, _⟩ => rfl | ⟨2, _⟩ => rfl)
  have e7 : ∀ k : Fin 128, idx_main_call1_v7 (ix3 b t u) k = ix4 b t u k := fun k =>
    funext fun a => Fin.ext (by match a with | ⟨0, _⟩ => rfl | ⟨1, _⟩ => rfl | ⟨2, _⟩ => rfl | ⟨3, _⟩ => rfl)
  have e4' : ∀ k : Fin 128, idx_main_call1_v3 (idx_main_call1_v4 (ix4 b t u k)) = ix3 b t u := fun k =>
    funext fun a => Fin.ext (by match a with | ⟨0, _⟩ => rfl | ⟨1, _⟩ => rfl | ⟨2, _⟩ => rfl)
  -- the shifted logit, at any position of the row
  have hshift : ∀ k : Fin 128, val_main_call1_v5 (F := Ideal) x0 x1 x2 x3 x4 x5 x6 x7 (ix4 b t u k)
      = refRow x0 x1 x2 x3 x4 x5 x6 x7 b t u k - rowMax (refRow x0 x1 x2 x3 x4 x5 x6 x7 b t u) := fun k => by
    rw [val_main_call1_v5_apply, val_main_call1_v4_apply, val_main_call1_v3_apply, e4', ref_max, ref_logit]
    rfl
  rw [val_main_v18_apply, hshift v, val_main_call1_v10_apply, val_main_call1_v9_apply, val_main_call1_v8_apply, e10,
    val_main_call1_v7_apply, val_main_call1_cst_1_apply]
  unfold logSoftmaxAt
  refine congrArg (fun z => (refRow x0 x1 x2 x3 x4 x5 x6 x7 b t u v - rowMax (refRow x0 x1 x2 x3 x4 x5 x6 x7 b t u)) - Ideal.log z) ?_
  show Ideal.ofBits .f32 0x00000000#32 + _ = _
  rw [Ideal.ofBits_zero_f32, zero_add]
  refine Finset.sum_congr rfl fun k _ => ?_
  rw [e7, val_main_call1_v6_apply, hshift k]
  rfl

/-- THE REFERENCE IS THE SPECIFICATION: its result array is `G` of its eight argument arrays. -/
theorem ref_eq (x0 : (⟨S4x448x96, .f32⟩ : BufTy).Contents (Elt Ideal)) (x1 : (⟨S4x448x32, .f32⟩ : BufTy).Contents (Elt Ideal))
    (x2 : (⟨S96x96, .f32⟩ : BufTy).Contents (Elt Ideal)) (x3 : (⟨S96, .f32⟩ : BufTy).Contents (Elt Ideal))
    (x4 : (⟨S96x32, .f32⟩ : BufTy).Contents (Elt Ideal)) (x5 : (⟨S96, .f32⟩ : BufTy).Contents (Elt Ideal))
    (x6 : (⟨S128x96, .f32⟩ : BufTy).Contents (Elt Ideal)) (x7 : (⟨S128, .f32⟩ : BufTy).Contents (Elt Ideal)) :
    val_main_v18 (F := Ideal) x0 x1 x2 x3 x4 x5 x6 x7 = Cert.Joiner.G x0 x1 x2 x3 x4 x5 x6 x7 := by
  funext i
  obtain ⟨b, t, u, v, rfl⟩ : ∃ (b : Fin 4) (t : Fin 448) (u : Fin 448) (v : Fin 128), i = ix4 b t u v :=
    ⟨i 0, i 1, i 2, i 3, eq_ix4 i⟩
  exact ref_out x0 x1 x2 x3 x4 x5 x6 x7 b t u v

end Cert.ReferenceIdeal.RefValue

end
-- ==== Proof.lean ====
/-
  The RNN-T joiner kernel against its jnp reference, over the extended reals.

  Both programs compute, for a batch entry b, a time step t, a label position u and a vocabulary entry v,
    sh[b,t,h]  = (sum over k of s[b,t,k] · W_sh[h,k]) + b_sh[h]
    bh[b,u,h]  = max ((sum over k of b[b,u,k] · W_bh[h,k]) + b_bh[h]) 0
    logit[v]   = (sum over h of (sh[b,t,h] · bh[b,u,h]) · W_out[v,h]) + b_out[v]
    out[b,t,u,v] = (logit[v] - M) - log (sum over w of exp (logit[w] - M)),   M = max (-inf) (max over w of logit[w]).
  The kernel does it tile by tile — 112 time steps by 64 label positions per grid point, the pair flattened into the rows
  of one matrix product, its operands rounded to bf16 on the way in — and the reference on whole arrays with broadcasts
  and contractions. At the extended reals a change of float format is the identity and a matrix product is the plain sum
  over its contraction index, taken in the same order on both sides; the two maxima are the same fold of `max` from -inf
  and the two sums of exponentials the same sum. So the two results are ONE function of the eight arrays, index by index,
  and no law of the extended reals beyond re-indexing is used: the precondition (finite inputs) is never opened.

  The frames of the two kernel programs are the generated ones; the reference's frame is its run with the result dropped;
  the ideal pass rewrote nothing, so that conjunct is `True`.
-/
import proofs.«174453_j10505490006677_2_alg».proof.Defs
import proofs.«174453_j10505490006677_2_alg».proof.Proof.Gen.Kernel
import proofs.«174453_j10505490006677_2_alg».proof.Proof.Gen.Kernel.Skeleton
import proofs.«174453_j10505490006677_2_alg».proof.Proof.Gen.Kernel.Launch
import proofs.«174453_j10505490006677_2_alg».proof.Proof.Gen.Kernel.Points
import proofs.«174453_j10505490006677_2_alg».proof.Proof.Gen.Kernel.Frame
import proofs.«174453_j10505490006677_2_alg».proof.Proof.Gen.KernelIdeal
import proofs.«174453_j10505490006677_2_alg».proof.Proof.Gen.KernelIdeal.Skeleton
import proofs.«174453_j10505490006677_2_alg».proof.Proof.Gen.KernelIdeal.Launch
import proofs.«174453_j10505490006677_2_alg».proof.Proof.Gen.KernelIdeal.Points
import proofs.«174453_j10505490006677_2_alg».proof.Proof.Gen.KernelIdeal.Frame
import proofs.«174453_j10505490006677_2_alg».proof.Proof.Gen.ReferenceIdeal
import proofs.«174453_j10505490006677_2_alg».proof.Proof.Gen.Pre_finite_inputs
import proofs.«174453_j10505490006677_2_alg».proof.Proof.KernelArray
import proofs.«174453_j10505490006677_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the eight arguments both programs end with the specification's function of them in their
    result arrays: the kernel by its blocks tiling the output, the reference operation by operation. -/
theorem algebraic : Cert.algebraic_KernelIdeal_ReferenceIdeal := by
  intro m ρ m' ρ' _ hagree
  refine ⟨fun c => Cert.Joiner.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v18_eq, Cert.ReferenceIdeal.RefValue.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
